-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64x64 .f32) (main_arg10 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 60
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with every buffer named.

  @main is six segments: three stretches of host operations and three pipelined regions.  The buffer contents at
  each boundary form a fold from the launch memory: a host stretch applies its operations, a region replaces each of
  its arrays by what its write-backs leave and keeps every other buffer.  Every weakly fair execution terminates
  with every buffer that outlives the regions at the last boundary's contents; in particular the result buffer
  holds what the third region's write-backs leave, and the arguments what they held at launch.
-/
import proofs.«141941_j75411035783819_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives the regions
    at the last boundary's contents `W6`: the launch over the six segments, the last thread state read against the
    final state. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at a TensorCore reference that is not scoped to a region. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c : Thread nD τ).loc b) = W6 m ρ c (Proc.devRef .tc b)) :=
  (θ_run defs _ _).mono (fun _ h c b hb => h c _ (mem_uc b hb)) (run_bufs m ρ)

end Cert.KernelIdeal.RunValue

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.Spec.lean ====
/-
  Three graph-convolution layers over the extended reals, as one function of the argument arrays.

  A layer takes node features `h : [100000, 64]` and the neighbour sums `agg : [100000, 64]` (row `i` of `agg` is the
  sum of the rows of `h` over the edges that end in `i`) and returns, entry by entry,

      conv agg h wl b wr (i, q) = (∑ k, agg (i, k) * wl (k, q) + b q) + ∑ k, h (i, k) * wr (k, q),

  followed by a maximum with zero on the first two layers.  The neighbour sum is left abstract here (`A`): both
  programs compute it with the same host operations, so nothing about it is ever needed beyond its name.

  The one law used: addition on the extended reals is commutative and associative, so a layer that adds the bias
  LAST, `(∑ agg * wl + ∑ h * wr) + b`, is the same entry.  No finiteness is involved.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- Node features: 100000 nodes, 64 channels. -/
abbrev Nodes : Shape := ⟨2, ![100000, 64]⟩
/-- A layer's weight matrix. -/
abbrev Weights : Shape := ⟨2, ![64, 64]⟩
/-- A layer's bias vector. -/
abbrev Bias : Shape := ⟨1, ![64]⟩

/-- The float word zero read at the ideal instance (the same word on both sides; never evaluated). -/
abbrev zeroWord : EReal := Ideal.ofBits .f32 0x00000000#32

/-- One layer before its activation: `(agg · wl + b) + h · wr`, entry by entry. -/
def conv (agg h : Nodes.Idx → EReal) (wl : Weights.Idx → EReal) (b : Bias.Idx → EReal) (wr : Weights.Idx → EReal) :
    Nodes.Idx → EReal := fun i =>
  (∑ k : Fin 64, agg (ix2 (i 0) k) * wl (ix2 k (i 1)) + b (ix1 (i 1))) + ∑ k : Fin 64, h (ix2 (i 0) k) * wr (ix2 k (i 1))

/-- One layer with its activation: the maximum of `conv` and zero, entry by entry. -/
def convRelu (agg h : Nodes.Idx → EReal) (wl : Weights.Idx → EReal) (b : Bias.Idx → EReal) (wr : Weights.Idx → EReal) :
    Nodes.Idx → EReal := fun i => max (conv agg h wl b wr i) zeroWord

theorem conv_apply (agg h : Nodes.Idx → EReal) (wl : Weights.Idx → EReal) (b : Bias.Idx → EReal) (wr : Weights.Idx → EReal)
    (p : Fin 100000) (q : Fin 64) :
    conv agg h wl b wr (ix2 p q)
      = (∑ k : Fin 64, agg (ix2 p k) * wl (ix2 k q) + b (ix1 q)) + ∑ k : Fin 64, h (ix2 p k) * wr (ix2 k q) := rfl

theorem convRelu_apply (agg h : Nodes.Idx → EReal) (wl : Weights.Idx → EReal) (b : Bias.Idx → EReal) (wr : Weights.Idx → EReal)
    (p : Fin 100000) (q : Fin 64) :
    convRelu agg h wl b wr (ix2 p q)
      = max ((∑ k : Fin 64, agg (ix2 p k) * wl (ix2 k q) + b (ix1 q)) + ∑ k : Fin 64, h (ix2 p k) * wr (ix2 k q)) zeroWord := rfl

/-- Adding the bias last instead of in the middle: the same extended real. -/
theorem bias_last (a c b : EReal) : (a + c) + b = (a + b) + c := add_right_comm a c b

/-- The three layers over a neighbour sum `A`: two activated layers and a plain one. -/
def net (A : (Nodes.Idx → EReal) → Nodes.Idx → EReal) (x : Nodes.Idx → EReal)
    (wl1 : Weights.Idx → EReal) (wr1 : Weights.Idx → EReal) (b1 : Bias.Idx → EReal)
    (wl2 : Weights.Idx → EReal) (wr2 : Weights.Idx → EReal) (b2 : Bias.Idx → EReal)
    (wl3 : Weights.Idx → EReal) (wr3 : Weights.Idx → EReal) (b3 : Bias.Idx → EReal) : Nodes.Idx → EReal :=
  conv (A (convRelu (A (convRelu (A x) x wl1 b1 wr1)) (convRelu (A x) x wl1 b1 wr1) wl2 b2 wr2))
    (convRelu (A (convRelu (A x) x wl1 b1 wr1)) (convRelu (A x) x wl1 b1 wr1) wl2 b2 wr2) wl3 b3 wr3

end Cert.GraphConv

end
-- ==== Proof.Payload.lean ====
/-
  What one grid point of a layer's kernel stores, entry by entry, over the extended reals.

  The body loads a block of 5000 rows of the neighbour sums `a` and of the node features `h`, the two weight
  matrices `wl`, `wr` and the bias as one row `brow : [1, 64]`, and stores

      (∑ k, a (r, k) * wl (k, q) + ∑ k, h (r, k) * wr (k, q)) + brow (0, q)

  at `(r, q)`, under a maximum with zero in the first two layers.  Narrowing an operand's float format changes
  nothing at the ideal instance, each matrix-unit product into a zero accumulator is the plain sum over the
  contracted coordinate, and the broadcast bias row reads the row's entry of the column.
-/
import proofs.«141941_j75411035783819_1_alg».proof.Proof.Gen.KernelIdeal.Skeleton
import proofs.«141941_j75411035783819_1_alg».proof.Proof.LibPlainDot
import proofs.«141941_j75411035783819_1_alg».proof.Proof.Spec
import Idealize.ShloMosaic.Lib.ValueLayout
import Idealize.ShloMosaic.Lib.Pipeline.Value

noncomputable section

namespace Cert.KernelIdeal.Payload

open Cert.KernelIdeal Cert.KernelIdeal.Gen Cert.GraphConv
open Idealize.ShloMosaic Idealize.ShloMosaic.ValueIdx

/-- The kernel's product is a plain 5000×64 by 64×64 one: contract the left operand's columns with the right
    operand's rows. -/
theorem dims_plain : dot_S5000x64_S64x64_S5000x64_1_0_0_1_n_n = DotDims.plain 5000 64 64 := rfl

/-- A matrix-unit product of a block into the zero accumulator, at `(r, q)`. -/
theorem prod_entry {φ₁ φ₂ : FTy} (a : FVec Ideal S5000x64 φ₁) (w : FVec Ideal S64x64 φ₂) (r : Fin 5000) (q : Fin 64) :
    matmul dot_S5000x64_S64x64_S5000x64_1_0_0_1_n_n none a w (constant (F := Ideal) S5000x64 .f32 0x00000000#32) (ix2 r q)
      = ∑ k : Fin 64, a (ix2 r k) * w (ix2 k q) :=
  PlainDot.matmul_zero_apply _ dims_plain none a w r q

/-- The bias row spread over the block's rows reads the row's entry of the column. -/
theorem bias_entry (x4 : Vec Ideal S1x64 .f32) (r : Fin 5000) (q : Fin 64) :
    broadcastTo S5000x64 (shapeCast S1x64 x4 shapeCasts_S1x64_S1x64) broadcasts_S1x64_S5000x64 (ix2 r q)
      = x4 (ix2 (0 : Fin 1) q) :=
  (broadcastTo_1b_ab_apply _ broadcasts_S1x64_S5000x64 r q).trans
    (congrFun (shapeCast_self x4 shapeCasts_S1x64_S1x64) (ix2 (0 : Fin 1) q))

/-- The first layer's stored block, at `(r, q)`. -/
theorem pay0_apply (x0 x1 : Vec Ideal S5000x64 .f32) (x2 x3 : Vec Ideal S64x64 .f32) (x4 : Vec Ideal S1x64 .f32)
    (r : Fin 5000) (q : Fin 64) :
    k0_pay1 (F := Ideal) x0 x1 x2 x3 x4 (ix2 r q)
      = max ((∑ k : Fin 64, x0 (ix2 r k) * x2 (ix2 k q) + ∑ k : Fin 64, x1 (ix2 r k) * x3 (ix2 k q))
          + x4 (ix2 (0 : Fin 1) q)) zeroWord := by
  unfold k0_pay1
  show max ((matmul (F := Ideal) dot_S5000x64_S64x64_S5000x64_1_0_0_1_n_n none
          (truncf .bf16 (shapeCast S5000x64 x0 shapeCasts_S5000x64_S5000x64) bitsLt_bf16_f32) (truncf .bf16 x2 bitsLt_bf16_f32)
          (constant (F := Ideal) S5000x64 .f32 0x00000000#32) (ix2 r q)
        + matmul (F := Ideal) dot_S5000x64_S64x64_S5000x64_1_0_0_1_n_n none
          (truncf .bf16 x1 bitsLt_bf16_f32) (truncf .bf16 x3 bitsLt_bf16_f32)
          (constant (F := Ideal) S5000x64 .f32 0x00000000#32) (ix2 r q))
      + broadcastTo S5000x64 (shapeCast S1x64 x4 shapeCasts_S1x64_S1x64) broadcasts_S1x64_S5000x64 (ix2 r q))
      (Ideal.ofBits .f32 0x00000000#32) = _
  rw [prod_entry, prod_entry, bias_entry]
  simp only [truncf_apply, shapeCast_self]

/-- The second layer's stored block, at `(r, q)`. -/
theorem pay1_apply (x0 x1 : Vec Ideal S5000x64 .f32) (x2 x3 : Vec Ideal S64x64 .f32) (x4 : Vec Ideal S1x64 .f32)
    (r : Fin 5000) (q : Fin 64) :
    k1_pay1 (F := Ideal) x0 x1 x2 x3 x4 (ix2 r q)
      = max ((∑ k : Fin 64, x0 (ix2 r k) * x2 (ix2 k q) + ∑ k : Fin 64, x1 (ix2 r k) * x3 (ix2 k q))
          + x4 (ix2 (0 : Fin 1) q)) zeroWord := by
  unfold k1_pay1
  show max ((matmul (F := Ideal) dot_S5000x64_S64x64_S5000x64_1_0_0_1_n_n none
          (truncf .bf16 (shapeCast S5000x64 x0 shapeCasts_S5000x64_S5000x64) bitsLt_bf16_f32) (truncf .bf16 x2 bitsLt_bf16_f32)
          (constant (F := Ideal) S5000x64 .f32 0x00000000#32) (ix2 r q)
        + matmul (F := Ideal) dot_S5000x64_S64x64_S5000x64_1_0_0_1_n_n none
          (truncf .bf16 (shapeCast S5000x64 x1 shapeCasts_S5000x64_S5000x64) bitsLt_bf16_f32) (truncf .bf16 x3 bitsLt_bf16_f32)
          (constant (F := Ideal) S5000x64 .f32 0x00000000#32) (ix2 r q))
      + broadcastTo S5000x64 (shapeCast S1x64 x4 shapeCasts_S1x64_S1x64) broadcasts_S1x64_S5000x64 (ix2 r q))
      (Ideal.ofBits .f32 0x00000000#32) = _
  rw [prod_entry, prod_entry, bias_entry]
  simp only [truncf_apply, shapeCast_self]

/-- The last layer's stored block, at `(r, q)`: no activation. -/
theorem pay2_apply (x0 x1 : Vec Ideal S5000x64 .f32) (x2 x3 : Vec Ideal S64x64 .f32) (x4 : Vec Ideal S1x64 .f32)
    (r : Fin 5000) (q : Fin 64) :
    k2_pay1 (F := Ideal) x0 x1 x2 x3 x4 (ix2 r q)
      = (∑ k : Fin 64, x0 (ix2 r k) * x2 (ix2 k q) + ∑ k : Fin 64, x1 (ix2 r k) * x3 (ix2 k q))
          + x4 (ix2 (0 : Fin 1) q) := by
  unfold k2_pay1
  show (matmul (F := Ideal) dot_S5000x64_S64x64_S5000x64_1_0_0_1_n_n none
          (truncf .bf16 (shapeCast S5000x64 x0 shapeCasts_S5000x64_S5000x64) bitsLt_bf16_f32) (truncf .bf16 x2 bitsLt_bf16_f32)
          (constant (F := Ideal) S5000x64 .f32 0x00000000#32) (ix2 r q)
        + matmul (F := Ideal) dot_S5000x64_S64x64_S5000x64_1_0_0_1_n_n none
          (truncf .bf16 (shapeCast S5000x64 x1 shapeCasts_S5000x64_S5000x64) bitsLt_bf16_f32) (truncf .bf16 x3 bitsLt_bf16_f32)
          (constant (F := Ideal) S5000x64 .f32 0x00000000#32) (ix2 r q))
      + broadcastTo S5000x64 (shapeCast S1x64 x4 shapeCasts_S1x64_S1x64) broadcasts_S1x64_S5000x64 (ix2 r q) = _
  rw [prod_entry, prod_entry, bias_entry]
  simp only [truncf_apply, shapeCast_self]

end Cert.KernelIdeal.Payload

end
-- ==== Proof.KernelForm.lean ====
/-
  A layer as the kernel computes it: the bias, reshaped on the host to one row `[1, 64]`, is added LAST.

      kerSum agg h wl wr brow (i, q) = (∑ k, agg (i, k) * wl (k, q) + ∑ k, h (i, k) * wr (k, q)) + brow (0, q)

  With `brow` the reshaped bias vector this is the layer of the specification: `(a + c) + b = (a + b) + c` on the
  extended reals (addition is commutative and associative there, infinities included).
-/
import proofs.«141941_j75411035783819_1_alg».proof.Proof.Spec
import Idealize.ShloMosaic.Lib.ValueLayout
import Idealize.ShloMosaic.Lib.Pipeline.Value

noncomputable section

namespace Cert.GraphConv

open Idealize.ShloMosaic Idealize.ShloMosaic.ValueIdx

/-- The bias as one row. -/
abbrev BiasRow : Shape := ⟨2, ![1, 64]⟩

/-- A layer with the bias row added last, before any activation. -/
def kerSum (agg h : Nodes.Idx → EReal) (wl wr : Weights.Idx → EReal) (brow : BiasRow.Idx → EReal) : Nodes.Idx → EReal :=
  fun i => (∑ k : Fin 64, agg (ix2 (i 0) k) * wl (ix2 k (i 1)) + ∑ k : Fin 64, h (ix2 (i 0) k) * wr (ix2 k (i 1)))
    + brow (ix2 (0 : Fin 1) (i 1))

/-- The same under a maximum with zero. -/
def kerRelu (agg h : Nodes.Idx → EReal) (wl wr : Weights.Idx → EReal) (brow : BiasRow.Idx → EReal) : Nodes.Idx → EReal :=
  fun i => max (kerSum agg h wl wr brow i) zeroWord

theorem kerSum_apply (agg h : Nodes.Idx → EReal) (wl wr : Weights.Idx → EReal) (brow : BiasRow.Idx → EReal)
    (p : Fin 100000) (q : Fin 64) :
    kerSum agg h wl wr brow (ix2 p q)
      = (∑ k : Fin 64, agg (ix2 p k) * wl (ix2 k q) + ∑ k : Fin 64, h (ix2 p k) * wr (ix2 k q)) + brow (ix2 (0 : Fin 1) q) := rfl

theorem kerRelu_apply (agg h : Nodes.Idx → EReal) (wl wr : Weights.Idx → EReal) (brow : BiasRow.Idx → EReal)
    (p : Fin 100000) (q : Fin 64) :
    kerRelu agg h wl wr brow (ix2 p q)
      = max ((∑ k : Fin 64, agg (ix2 p k) * wl (ix2 k q) + ∑ k : Fin 64, h (ix2 p k) * wr (ix2 k q)) + brow (ix2 (0 : Fin 1) q)) zeroWord := rfl

/-- With the reshaped bias vector as its row, the kernel's layer is the specification's. -/
theorem kerSum_eq_conv (agg h : Nodes.Idx → EReal) (wl wr : Weights.Idx → EReal) (b : Bias.Idx → EReal)
    (hc : Bias.ShapeCasts BiasRow) :
    kerSum agg h wl wr (shapeCast BiasRow b hc) = conv agg h wl b wr := by
  funext i
  obtain ⟨p, q, rfl⟩ : ∃ (p : Fin 100000) (q : Fin 64), i = ix2 p q := ⟨i 0, i 1, eq_ix2 i⟩
  rw [kerSum_apply, conv_apply, shapeCast_a_1a_apply b hc (0 : Fin 1) q]
  exact bias_last _ _ _

theorem kerRelu_eq_convRelu (agg h : Nodes.Idx → EReal) (wl wr : Weights.Idx → EReal) (b : Bias.Idx → EReal)
    (hc : Bias.ShapeCasts BiasRow) :
    kerRelu agg h wl wr (shapeCast BiasRow b hc) = convRelu agg h wl b wr := by
  funext i
  show max (kerSum agg h wl wr (shapeCast BiasRow b hc) i) zeroWord = max (conv agg h wl b wr i) zeroWord
  rw [kerSum_eq_conv]

end Cert.GraphConv

end
-- ==== Proof.Region0.lean ====
/-
  The first layer's region, read as one array.

  The region runs the layer's kernel over 20 blocks of 5000 rows.  At point `t` the two row-blocked inputs (the
  neighbour sums and the node features) and the output all sit at rows `5000 t … 5000 t + 4999`, while the two weight
  matrices and the bias row are read whole.  So what point `t` writes back is block `t` of the layer as one function
  of the arrays the region finds, the 20 blocks tile the 100000 rows, and the output array ends holding that function
  — whatever the contents `V` the region is entered with.
-/
import proofs.«141941_j75411035783819_1_alg».proof.Proof.Gen.KernelIdeal.Frame
import proofs.«141941_j75411035783819_1_alg».proof.Proof.Payload
import proofs.«141941_j75411035783819_1_alg».proof.Proof.KernelForm
import Idealize.ShloMosaic.Lib.Pipeline.Value

set_option maxRecDepth 16384

noncomputable section

namespace Cert.KernelIdeal.Region0

open Cert.KernelIdeal Cert.KernelIdeal.Gen Cert.KernelIdeal.Payload Cert.GraphConv
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows move together along the rows, the whole-array
    windows stay at the origin, and the row block stays below 20. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- One stored entry against the layer as a function of whole arrays: block row `r` is array row `p`. -/
theorem point_entry (A H : Nodes.Idx → EReal) (WL WR : Weights.Idx → EReal) (B : BiasRow.Idx → EReal)
    (x0 x1 : Vec Ideal S5000x64 .f32) (x2 x3 : Vec Ideal S64x64 .f32) (x4 : Vec Ideal S1x64 .f32)
    (r : Fin 5000) (q : Fin 64) (p : Fin 100000)
    (h0 : ∀ k : Fin 64, x0 (ix2 r k) = A (ix2 p k)) (h1 : ∀ k : Fin 64, x1 (ix2 r k) = H (ix2 p k))
    (h2 : x2 = WL) (h3 : x3 = WR) (h4 : x4 = B) :
    k0_pay1 (F := Ideal) x0 x1 x2 x3 x4 (ix2 r q) = kerRelu A H WL WR B (ix2 p q) := by
  subst h2 h3 h4
  rw [pay0_apply, kerRelu_apply]
  simp only [h0, h1]

/-- WHAT POINT `t` WRITES BACK is block `t` of the layer of the arrays the region finds. -/
theorem flushed_eq (c : Dev nD) (t : Fin cfg0.N) :
    (dat0 V c).flushed 5 t = ((cfg0.win 5).blk t).view.read (Elt Ideal)
      (kerRelu (V c main_v13) (V c main_arg0) (V c main_arg2) (V c main_arg3) (V c main_v14)) := by
  show (cfg0.win 5).cut (grid0.coords t) ((dat0 V c).after 5 t) = _
  rw [after0_5]
  unfold out0_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e5b, e51⟩ := index_facts t
  refine funext fun (j : S5000x64.Idx) => ?_
  obtain ⟨r, q, rfl⟩ : ∃ (r : Fin 5000) (q : Fin 64), j = ix2 r q := ⟨j 0, j 1, eq_ix2 j⟩
  have hp : win0_5.index t (0 : Fin 2) * 5000 + r.val < 100000 := by have := r.isLt; omega
  have he : ((cfg0.win 5).blk t).view.emb (ix2 r q) = ix2 (⟨win0_5.index t (0 : Fin 2) * 5000 + r.val, hp⟩ : Fin 100000) q := by
    funext a; apply Fin.ext
    match a with
    | ⟨0, _⟩ => show win0_5.index t (0 : Fin 2) * 5000 + 1 * r.val = win0_5.index t (0 : Fin 2) * 5000 + r.val; omega
    | ⟨1, _⟩ => show win0_5.index t (1 : Fin 2) * 64 + 1 * q.val = q.val; omega
  show k0_pay1 (F := Ideal) (iblk0 V c 0 t) (iblk0 V c 1 t) (iblk0 V c 2 t) (iblk0 V c 3 t) (iblk0 V c 4 t) (ix2 r q)
    = kerRelu (V c main_v13) (V c main_arg0) (V c main_arg2) (V c main_arg3) (V c main_v14) (((cfg0.win 5).blk t).view.emb (ix2 r q))
  rw [he]
  refine point_entry (V c main_v13) (V c main_arg0) (V c main_arg2) (V c main_arg3) (V c main_v14)
    (iblk0 V c 0 t) (iblk0 V c 1 t) (iblk0 V c 2 t) (iblk0 V c 3 t) (iblk0 V c 4 t) r q _ ?_ ?_ ?_ ?_ ?_
  · intro k
    show V c main_v13 (((cfg0.win 0).blk t).view.emb (ix2 r k)) = V c main_v13 (ix2 _ k)
    refine congrArg (V c main_v13) ?_
    funext a; apply Fin.ext
    match a with
    | ⟨0, _⟩ => show win0_0.index t (0 : Fin 2) * 5000 + 1 * r.val = win0_5.index t (0 : Fin 2) * 5000 + r.val; omega
    | ⟨1, _⟩ => show win0_0.index t (1 : Fin 2) * 64 + 1 * k.val = k.val; omega
  · intro k
    show V c main_arg0 (((cfg0.win 1).blk t).view.emb (ix2 r k)) = V c main_arg0 (ix2 _ k)
    refine congrArg (V c main_arg0) ?_
    funext a; apply Fin.ext
    match a with
    | ⟨0, _⟩ => show win0_1.index t (0 : Fin 2) * 5000 + 1 * r.val = win0_5.index t (0 : Fin 2) * 5000 + r.val; omega
    | ⟨1, _⟩ => show win0_1.index t (1 : Fin 2) * 64 + 1 * k.val = k.val; omega
  · refine funext fun (y : S64x64.Idx) => ?_
    show V c main_arg2 (((cfg0.win 2).blk t).view.emb y) = V c main_arg2 y
    refine congrArg (V c main_arg2) ?_
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  · refine funext fun (y : S64x64.Idx) => ?_
    show V c main_arg3 (((cfg0.win 3).blk t).view.emb y) = V c main_arg3 y
    refine congrArg (V c main_arg3) ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  · refine funext fun (y : S1x64.Idx) => ?_
    show V c main_v14 (((cfg0.win 4).blk t).view.emb y) = V c main_v14 y
    refine congrArg (V c main_v14) ?_
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v15).slice (win0_5.rect t)).set ↔ _
  rw [View.set_slice_whole, Rect.mem_set_unit]
  exact Iff.rfl

/-- The 20 row blocks tile the array: row `i` lies in block `i / 5000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the region: the layer of the arrays the region finds. -/
theorem out_eq (c : Dev nD) :
    (dat0 V c).arrAt 5 cfg0.N
      = kerRelu (V c main_v13) (V c main_arg0) (V c main_arg2) (V c main_arg3) (V c main_v14) :=
  (dat0 V c).arrAt_eq_of_cover 5 _ (fun t _ => flushed_eq V c t) covered

end Cert.KernelIdeal.Region0

end
-- ==== Proof.Region1.lean ====
/-
  The second layer's region, read as one array.

  The region runs the layer's kernel over 20 blocks of 5000 rows.  At point `t` the two row-blocked inputs (the
  neighbour sums and the node features) and the output all sit at rows `5000 t … 5000 t + 4999`, while the two weight
  matrices and the bias row are read whole.  So what point `t` writes back is block `t` of the layer as one function
  of the arrays the region finds, the 20 blocks tile the 100000 rows, and the output array ends holding that function
  — whatever the contents `V` the region is entered with.
-/
import proofs.«141941_j75411035783819_1_alg».proof.Proof.Gen.KernelIdeal.Frame
import proofs.«141941_j75411035783819_1_alg».proof.Proof.Payload
import proofs.«141941_j75411035783819_1_alg».proof.Proof.KernelForm
import Idealize.ShloMosaic.Lib.Pipeline.Value

set_option maxRecDepth 16384

noncomputable section

namespace Cert.KernelIdeal.Region1

open Cert.KernelIdeal Cert.KernelIdeal.Gen Cert.KernelIdeal.Payload Cert.GraphConv
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows move together along the rows, the whole-array
    windows stay at the origin, and the row block stays below 20. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every row block is some point's. -/
theorem index_onto : ∀ q0 : Fin 20, ∃ t : Fin cfg1.N, win1_5.index t = ![q0.val, 0] :=
  (by decide +kernel : ∀ q0 : Fin 20, ∃ t : Fin grid1.N, win1_5.index t = ![q0.val, 0])

/-- One stored entry against the layer as a function of whole arrays: block row `r` is array row `p`. -/
theorem point_entry (A H : Nodes.Idx → EReal) (WL WR : Weights.Idx → EReal) (B : BiasRow.Idx → EReal)
    (x0 x1 : Vec Ideal S5000x64 .f32) (x2 x3 : Vec Ideal S64x64 .f32) (x4 : Vec Ideal S1x64 .f32)
    (r : Fin 5000) (q : Fin 64) (p : Fin 100000)
    (h0 : ∀ k : Fin 64, x0 (ix2 r k) = A (ix2 p k)) (h1 : ∀ k : Fin 64, x1 (ix2 r k) = H (ix2 p k))
    (h2 : x2 = WL) (h3 : x3 = WR) (h4 : x4 = B) :
    k1_pay1 (F := Ideal) x0 x1 x2 x3 x4 (ix2 r q) = kerRelu A H WL WR B (ix2 p q) := by
  subst h2 h3 h4
  rw [pay1_apply, kerRelu_apply]
  simp only [h0, h1]

/-- WHAT POINT `t` WRITES BACK is block `t` of the layer of the arrays the region finds. -/
theorem flushed_eq (c : Dev nD) (t : Fin cfg1.N) :
    (dat1 V c).flushed 5 t = ((cfg1.win 5).blk t).view.read (Elt Ideal)
      (kerRelu (V c main_v25) (V c main_v15) (V c main_arg5) (V c main_arg6) (V c main_v26)) := by
  show (cfg1.win 5).cut (grid1.coords t) ((dat1 V c).after 5 t) = _
  rw [after1_5]
  unfold out1_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e5b, e51⟩ := index_facts t
  refine funext fun (j : S5000x64.Idx) => ?_
  obtain ⟨r, q, rfl⟩ : ∃ (r : Fin 5000) (q : Fin 64), j = ix2 r q := ⟨j 0, j 1, eq_ix2 j⟩
  have hp : win1_5.index t (0 : Fin 2) * 5000 + r.val < 100000 := by have := r.isLt; omega
  have he : ((cfg1.win 5).blk t).view.emb (ix2 r q) = ix2 (⟨win1_5.index t (0 : Fin 2) * 5000 + r.val, hp⟩ : Fin 100000) q := by
    funext a; apply Fin.ext
    match a with
    | ⟨0, _⟩ => show win1_5.index t (0 : Fin 2) * 5000 + 1 * r.val = win1_5.index t (0 : Fin 2) * 5000 + r.val; omega
    | ⟨1, _⟩ => show win1_5.index t (1 : Fin 2) * 64 + 1 * q.val = q.val; omega
  show k1_pay1 (F := Ideal) (iblk1 V c 0 t) (iblk1 V c 1 t) (iblk1 V c 2 t) (iblk1 V c 3 t) (iblk1 V c 4 t) (ix2 r q)
    = kerRelu (V c main_v25) (V c main_v15) (V c main_arg5) (V c main_arg6) (V c main_v26) (((cfg1.win 5).blk t).view.emb (ix2 r q))
  rw [he]
  refine point_entry (V c main_v25) (V c main_v15) (V c main_arg5) (V c main_arg6) (V c main_v26)
    (iblk1 V c 0 t) (iblk1 V c 1 t) (iblk1 V c 2 t) (iblk1 V c 3 t) (iblk1 V c 4 t) r q _ ?_ ?_ ?_ ?_ ?_
  · intro k
    show V c main_v25 (((cfg1.win 0).blk t).view.emb (ix2 r k)) = V c main_v25 (ix2 _ k)
    refine congrArg (V c main_v25) ?_
    funext a; apply Fin.ext
    match a with
    | ⟨0, _⟩ => show win1_0.index t (0 : Fin 2) * 5000 + 1 * r.val = win1_5.index t (0 : Fin 2) * 5000 + r.val; omega
    | ⟨1, _⟩ => show win1_0.index t (1 : Fin 2) * 64 + 1 * k.val = k.val; omega
  · intro k
    show V c main_v15 (((cfg1.win 1).blk t).view.emb (ix2 r k)) = V c main_v15 (ix2 _ k)
    refine congrArg (V c main_v15) ?_
    funext a; apply Fin.ext
    match a with
    | ⟨0, _⟩ => show win1_1.index t (0 : Fin 2) * 5000 + 1 * r.val = win1_5.index t (0 : Fin 2) * 5000 + r.val; omega
    | ⟨1, _⟩ => show win1_1.index t (1 : Fin 2) * 64 + 1 * k.val = k.val; omega
  · refine funext fun (y : S64x64.Idx) => ?_
    show V c main_arg5 (((cfg1.win 2).blk t).view.emb y) = V c main_arg5 y
    refine congrArg (V c main_arg5) ?_
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  · refine funext fun (y : S64x64.Idx) => ?_
    show V c main_arg6 (((cfg1.win 3).blk t).view.emb y) = V c main_arg6 y
    refine congrArg (V c main_arg6) ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  · refine funext fun (y : S1x64.Idx) => ?_
    show V c main_v26 (((cfg1.win 4).blk t).view.emb y) = V c main_v26 y
    refine congrArg (V c main_v26) ?_
    funext a; apply Fin.ext
    match a with
    | ⟨0, _⟩ => show win1_4.index t (0 : Fin 2) * 1 + 1 * (y 0).val = (y 0).val; omega
    | ⟨1, _⟩ => show win1_4.index t (1 : Fin 2) * 64 + 1 * (y 1).val = (y 1).val; omega

/-- An index of the output array is in point `t`'s block iff each coordinate is in the block's range on its axis. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v27).slice (win1_5.rect t)).set ↔ _
  rw [View.set_slice_whole, Rect.mem_set_unit]
  exact Iff.rfl

/-- The 20 row blocks tile the array: row `i` lies in block `i / 5000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the region: the layer of the arrays the region finds. -/
theorem out_eq (c : Dev nD) :
    (dat1 V c).arrAt 5 cfg1.N
      = kerRelu (V c main_v25) (V c main_v15) (V c main_arg5) (V c main_arg6) (V c main_v26) :=
  (dat1 V c).arrAt_eq_of_cover 5 _ (fun t _ => flushed_eq V c t) covered

end Cert.KernelIdeal.Region1

end
-- ==== Proof.Region2.lean ====
/-
  The third layer's region, read as one array.

  The region runs the layer's kernel over 20 blocks of 5000 rows.  At point `t` the two row-blocked inputs (the
  neighbour sums and the node features) and the output all sit at rows `5000 t … 5000 t + 4999`, while the two weight
  matrices and the bias row are read whole.  So what point `t` writes back is block `t` of the layer as one function
  of the arrays the region finds, the 20 blocks tile the 100000 rows, and the output array ends holding that function
  — whatever the contents `V` the region is entered with.
-/
import proofs.«141941_j75411035783819_1_alg».proof.Proof.Gen.KernelIdeal.Frame
import proofs.«141941_j75411035783819_1_alg».proof.Proof.Payload
import proofs.«141941_j75411035783819_1_alg».proof.Proof.KernelForm
import Idealize.ShloMosaic.Lib.Pipeline.Value

set_option maxRecDepth 16384

noncomputable section

namespace Cert.KernelIdeal.Region2

open Cert.KernelIdeal Cert.KernelIdeal.Gen Cert.KernelIdeal.Payload Cert.GraphConv
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows move together along the rows, the whole-array
    windows stay at the origin, and the row block stays below 20. -/
theorem index_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19 ∧ win2_5.index t (1 : Fin 2) = 0 :=
  (by decide +kernel : ∀ t : Fin grid2.N, _)

/-- Every row block is some point's. -/
theorem index_onto : ∀ q0 : Fin 20, ∃ t : Fin cfg2.N, win2_5.index t = ![q0.val, 0] :=
  (by decide +kernel : ∀ q0 : Fin 20, ∃ t : Fin grid2.N, win2_5.index t = ![q0.val, 0])

/-- One stored entry against the layer as a function of whole arrays: block row `r` is array row `p`. -/
theorem point_entry (A H : Nodes.Idx → EReal) (WL WR : Weights.Idx → EReal) (B : BiasRow.Idx → EReal)
    (x0 x1 : Vec Ideal S5000x64 .f32) (x2 x3 : Vec Ideal S64x64 .f32) (x4 : Vec Ideal S1x64 .f32)
    (r : Fin 5000) (q : Fin 64) (p : Fin 100000)
    (h0 : ∀ k : Fin 64, x0 (ix2 r k) = A (ix2 p k)) (h1 : ∀ k : Fin 64, x1 (ix2 r k) = H (ix2 p k))
    (h2 : x2 = WL) (h3 : x3 = WR) (h4 : x4 = B) :
    k2_pay1 (F := Ideal) x0 x1 x2 x3 x4 (ix2 r q) = kerSum A H WL WR B (ix2 p q) := by
  subst h2 h3 h4
  rw [pay2_apply, kerSum_apply]
  simp only [h0, h1]

/-- WHAT POINT `t` WRITES BACK is block `t` of the layer of the arrays the region finds. -/
theorem flushed_eq (c : Dev nD) (t : Fin cfg2.N) :
    (dat2 V c).flushed 5 t = ((cfg2.win 5).blk t).view.read (Elt Ideal)
      (kerSum (V c main_v37) (V c main_v27) (V c main_arg8) (V c main_arg9) (V c main_v38)) := by
  show (cfg2.win 5).cut (grid2.coords t) ((dat2 V c).after 5 t) = _
  rw [after2_5]
  unfold out2_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e5b, e51⟩ := index_facts t
  refine funext fun (j : S5000x64.Idx) => ?_
  obtain ⟨r, q, rfl⟩ : ∃ (r : Fin 5000) (q : Fin 64), j = ix2 r q := ⟨j 0, j 1, eq_ix2 j⟩
  have hp : win2_5.index t (0 : Fin 2) * 5000 + r.val < 100000 := by have := r.isLt; omega
  have he : ((cfg2.win 5).blk t).view.emb (ix2 r q) = ix2 (⟨win2_5.index t (0 : Fin 2) * 5000 + r.val, hp⟩ : Fin 100000) q := by
    funext a; apply Fin.ext
    match a with
    | ⟨0, _⟩ => show win2_5.index t (0 : Fin 2) * 5000 + 1 * r.val = win2_5.index t (0 : Fin 2) * 5000 + r.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 r q)
    = kerSum (V c main_v37) (V c main_v27) (V c main_arg8) (V c main_arg9) (V c main_v38) (((cfg2.win 5).blk t).view.emb (ix2 r q))
  rw [he]
  refine point_entry (V c main_v37) (V c main_v27) (V c main_arg8) (V c main_arg9) (V c main_v38)
    (iblk2 V c 0 t) (iblk2 V c 1 t) (iblk2 V c 2 t) (iblk2 V c 3 t) (iblk2 V c 4 t) r q _ ?_ ?_ ?_ ?_ ?_
  · intro k
    show V c main_v37 (((cfg2.win 0).blk t).view.emb (ix2 r k)) = V c main_v37 (ix2 _ k)
    refine congrArg (V c main_v37) ?_
    funext a; apply Fin.ext
    match a with
    | ⟨0, _⟩ => show win2_0.index t (0 : Fin 2) * 5000 + 1 * r.val = win2_5.index t (0 : Fin 2) * 5000 + r.val; omega
    | ⟨1, _⟩ => show win2_0.index t (1 : Fin 2) * 64 + 1 * k.val = k.val; omega
  · intro k
    show V c main_v27 (((cfg2.win 1).blk t).view.emb (ix2 r k)) = V c main_v27 (ix2 _ k)
    refine congrArg (V c main_v27) ?_
    funext a; apply Fin.ext
    match a with
    | ⟨0, _⟩ => show win2_1.index t (0 : Fin 2) * 5000 + 1 * r.val = win2_5.index t (0 : Fin 2) * 5000 + r.val; omega
    | ⟨1, _⟩ => show win2_1.index t (1 : Fin 2) * 64 + 1 * k.val = k.val; omega
  · refine funext fun (y : S64x64.Idx) => ?_
    show V c main_arg8 (((cfg2.win 2).blk t).view.emb y) = V c main_arg8 y
    refine congrArg (V c main_arg8) ?_
    funext a; apply Fin.ext
    match a with
    | ⟨0, _⟩ => show win2_2.index t (0 : Fin 2) * 64 + 1 * (y 0).val = (y 0).val; omega
    | ⟨1, _⟩ => show win2_2.index t (1 : Fin 2) * 64 + 1 * (y 1).val = (y 1).val; omega
  · refine funext fun (y : S64x64.Idx) => ?_
    show V c main_arg9 (((cfg2.win 3).blk t).view.emb y) = V c main_arg9 y
    refine congrArg (V c main_arg9) ?_
    funext a; apply Fin.ext
    match a with
    | ⟨0, _⟩ => show win2_3.index t (0 : Fin 2) * 64 + 1 * (y 0).val = (y 0).val; omega
    | ⟨1, _⟩ => show win2_3.index t (1 : Fin 2) * 64 + 1 * (y 1).val = (y 1).val; omega
  · refine funext fun (y : S1x64.Idx) => ?_
    show V c main_v38 (((cfg2.win 4).blk t).view.emb y) = V c main_v38 y
    refine congrArg (V c main_v38) ?_
    funext a; apply Fin.ext
    match a with
    | ⟨0, _⟩ => show win2_4.index t (0 : Fin 2) * 1 + 1 * (y 0).val = (y 0).val; omega
    | ⟨1, _⟩ => show win2_4.index t (1 : Fin 2) * 64 + 1 * (y 1).val = (y 1).val; omega

/-- An index of the output array is in point `t`'s block iff each coordinate is in the block's range on its axis. -/
theorem mem_block (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v39).slice (win2_5.rect t)).set ↔ _
  rw [View.set_slice_whole, Rect.mem_set_unit]
  exact Iff.rfl

/-- The 20 row blocks tile the array: row `i` lies in block `i / 5000`. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE OUTPUT ARRAY after the region: the layer of the arrays the region finds. -/
theorem out_eq (c : Dev nD) :
    (dat2 V c).arrAt 5 cfg2.N
      = kerSum (V c main_v37) (V c main_v27) (V c main_arg8) (V c main_arg9) (V c main_v38) :=
  (dat2 V c).arrAt_eq_of_cover 5 _ (fun t _ => flushed_eq V c t) covered

end Cert.KernelIdeal.Region2

end
-- ==== Proof.KernelValue.lean ====
/-
  The idealized kernel's result is the three layers of the specification.

  The buffer contents at @main's segment boundaries form a fold from the launch memory.  Before each region the host
  computes the neighbour sum of the current features (gather the rows at the edges' sources, scatter-add them at the
  edges' targets) and reshapes the layer's bias to one row; the region then leaves the layer of those arrays in its
  output array and changes nothing else.  Reading the fold from the result buffer back to the launch memory gives the
  three layers nested, each over the same neighbour sum of the edge array.
-/
import proofs.«141941_j75411035783819_1_alg».proof.Proof.Gen.KernelIdeal.Frame
import proofs.«141941_j75411035783819_1_alg».proof.Proof.Region0
import proofs.«141941_j75411035783819_1_alg».proof.Proof.Region1
import proofs.«141941_j75411035783819_1_alg».proof.Proof.Region2
import proofs.«141941_j75411035783819_1_alg».proof.Proof.KernelForm
import Idealize.ShloMosaic.Lib.StableHlo.Run

set_option maxRecDepth 16384

noncomputable section

namespace Cert.KernelIdeal.HostValue

open Cert.KernelIdeal Cert.KernelIdeal.Gen Cert.GraphConv
open Idealize.ShloMosaic Idealize.ShloMosaic.TcCoe Idealize.ShloMosaic.ValueIdx Idealize.ShloMosaic.StableHlo Idealize.SL.Sem

/-- The edges' source rows: row 0 of the edge array. -/
def srcOf (e : IVec S2x1600000 32) : IVec S1600000 32 :=
  shapeCast _ (extractStridedSlice S1x1600000 ![0, 0] e slices_S2x1600000_S1x1600000_0_0) shapeCasts_S1x1600000_S1600000

/-- The edges' target rows: row 1 of the edge array. -/
def dstOf (e : IVec S2x1600000 32) : IVec S1600000 32 :=
  shapeCast _ (extractStridedSlice S1x1600000 ![1, 0] e slices_S2x1600000_S1x1600000_1_0) shapeCasts_S1x1600000_S1600000

/-- The neighbour sum: the rows of `x` at the sources (a negative row number wrapped once), scatter-added into zeros
    at the targets. -/
def aggrFrom (src dst : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg)

/-- The neighbour sum over the launch memory's edge array. -/
def nbr (c : Dev nD) : FVec Ideal S100000x64 .f32 → FVec Ideal S100000x64 .f32 :=
  aggrFrom (srcOf (m ((c : Thread nD τ).loc main_arg1))) (dstOf (m ((c : Thread nD τ).loc main_arg1)))

/-- The features after the first layer, of the launch memory. -/
def feat1 (c : Dev nD) : Nodes.Idx → EReal :=
  convRelu (nbr m c (m ((c : Thread nD τ).loc main_arg0))) (m ((c : Thread nD τ).loc main_arg0)) (m ((c : Thread nD τ).loc main_arg2)) (m ((c : Thread nD τ).loc main_arg4)) (m ((c : Thread nD τ).loc main_arg3))

/-- The features after the second layer. -/
def feat2 (c : Dev nD) : Nodes.Idx → EReal :=
  convRelu (nbr m c (feat1 m c)) (feat1 m c) (m ((c : Thread nD τ).loc main_arg5)) (m ((c : Thread nD τ).loc main_arg7)) (m ((c : Thread nD τ).loc main_arg6))

/-- The result: the third layer, not activated. -/
def feat3 (c : Dev nD) : Nodes.Idx → EReal :=
  conv (nbr m c (feat2 m c)) (feat2 m c) (m ((c : Thread nD τ).loc main_arg8)) (m ((c : Thread nD τ).loc main_arg10)) (m ((c : Thread nD τ).loc main_arg9))

/-! ## Before the first region -/

theorem V1_src (c : Dev nD) : V1 m ρ c main_v1 = srcOf (m ((c : Thread nD τ).loc main_arg1)) := by
  show StableHlo.after hostOps0 (W0 m ρ c) (Proc.devRef .tc main_v1) = _
  dsimp only [hostOps0]
  after_results
  rfl

theorem V1_dst (c : Dev nD) : V1 m ρ c main_v3 = dstOf (m ((c : Thread nD τ).loc main_arg1)) := by
  show StableHlo.after hostOps0 (W0 m ρ c) (Proc.devRef .tc main_v3) = _
  dsimp only [hostOps0]
  after_results
  rfl

theorem V1_agg (c : Dev nD) : V1 m ρ c main_v13 = nbr m c (m ((c : Thread nD τ).loc main_arg0)) := by
  show StableHlo.after hostOps0 (W0 m ρ c) (Proc.devRef .tc main_v13) = _
  dsimp only [hostOps0]
  after_results
  rfl

theorem V1_brow (c : Dev nD) : V1 m ρ c main_v14 = shapeCast S1x64 (m ((c : Thread nD τ).loc main_arg4)) shapeCasts_S64_S1x64 := by
  show StableHlo.after hostOps0 (W0 m ρ c) (Proc.devRef .tc main_v14) = _
  dsimp only [hostOps0]
  after_results
  rfl

theorem V1_arg0 (c : Dev nD) : V1 m ρ c main_arg0 = (m ((c : Thread nD τ).loc main_arg0)) := by
  show StableHlo.after hostOps0 (W0 m ρ c) (Proc.devRef .tc main_arg0) = _
  dsimp only [hostOps0]
  after_results

theorem V1_arg2 (c : Dev nD) : V1 m ρ c main_arg2 = (m ((c : Thread nD τ).loc main_arg2)) := by
  show StableHlo.after hostOps0 (W0 m ρ c) (Proc.devRef .tc main_arg2) = _
  dsimp only [hostOps0]
  after_results

theorem V1_arg3 (c : Dev nD) : V1 m ρ c main_arg3 = (m ((c : Thread nD τ).loc main_arg3)) := by
  show StableHlo.after hostOps0 (W0 m ρ c) (Proc.devRef .tc main_arg3) = _
  dsimp only [hostOps0]
  after_results

theorem V1_arg5 (c : Dev nD) : V1 m ρ c main_arg5 = (m ((c : Thread nD τ).loc main_arg5)) := by
  show StableHlo.after hostOps0 (W0 m ρ c) (Proc.devRef .tc main_arg5) = _
  dsimp only [hostOps0]
  after_results

theorem V1_arg6 (c : Dev nD) : V1 m ρ c main_arg6 = (m ((c : Thread nD τ).loc main_arg6)) := by
  show StableHlo.after hostOps0 (W0 m ρ c) (Proc.devRef .tc main_arg6) = _
  dsimp only [hostOps0]
  after_results

theorem V1_arg7 (c : Dev nD) : V1 m ρ c main_arg7 = (m ((c : Thread nD τ).loc main_arg7)) := by
  show StableHlo.after hostOps0 (W0 m ρ c) (Proc.devRef .tc main_arg7) = _
  dsimp only [hostOps0]
  after_results

theorem V1_arg8 (c : Dev nD) : V1 m ρ c main_arg8 = (m ((c : Thread nD τ).loc main_arg8)) := by
  show StableHlo.after hostOps0 (W0 m ρ c) (Proc.devRef .tc main_arg8) = _
  dsimp only [hostOps0]
  after_results

theorem V1_arg9 (c : Dev nD) : V1 m ρ c main_arg9 = (m ((c : Thread nD τ).loc main_arg9)) := by
  show StableHlo.after hostOps0 (W0 m ρ c) (Proc.devRef .tc main_arg9) = _
  dsimp only [hostOps0]
  after_results

theorem V1_arg10 (c : Dev nD) : V1 m ρ c main_arg10 = (m ((c : Thread nD τ).loc main_arg10)) := by
  show StableHlo.after hostOps0 (W0 m ρ c) (Proc.devRef .tc main_arg10) = _
  dsimp only [hostOps0]
  after_results

/-! ## The first region's output -/

theorem W2_feat1 (c : Dev nD) : W2 m ρ c (Proc.devRef .tc main_v15) = feat1 m c := by
  refine (W2_arr m ρ c 5).trans ?_
  rw [Region0.out_eq (V1 m ρ) c, V1_agg m ρ c, V1_arg0 m ρ c, V1_arg2 m ρ c, V1_arg3 m ρ c, V1_brow m ρ c]
  exact kerRelu_eq_convRelu _ _ _ _ _ _

/-! ## Before the second region -/

theorem W2_src (c : Dev nD) : W2 m ρ c (Proc.devRef .tc main_v1) = srcOf (m ((c : Thread nD τ).loc main_arg1)) :=
  (W2_of_ne m ρ c main_v1 (by decide)).trans (V1_src m ρ c)

theorem W2_dst (c : Dev nD) : W2 m ρ c (Proc.devRef .tc main_v3) = dstOf (m ((c : Thread nD τ).loc main_arg1)) :=
  (W2_of_ne m ρ c main_v3 (by decide)).trans (V1_dst m ρ c)

theorem W2_arg5 (c : Dev nD) : W2 m ρ c (Proc.devRef .tc main_arg5) = (m ((c : Thread nD τ).loc main_arg5)) :=
  (W2_of_ne m ρ c main_arg5 (by decide)).trans (V1_arg5 m ρ c)

theorem W2_arg6 (c : Dev nD) : W2 m ρ c (Proc.devRef .tc main_arg6) = (m ((c : Thread nD τ).loc main_arg6)) :=
  (W2_of_ne m ρ c main_arg6 (by decide)).trans (V1_arg6 m ρ c)

theorem W2_arg7 (c : Dev nD) : W2 m ρ c (Proc.devRef .tc main_arg7) = (m ((c : Thread nD τ).loc main_arg7)) :=
  (W2_of_ne m ρ c main_arg7 (by decide)).trans (V1_arg7 m ρ c)

theorem W2_arg8 (c : Dev nD) : W2 m ρ c (Proc.devRef .tc main_arg8) = (m ((c : Thread nD τ).loc main_arg8)) :=
  (W2_of_ne m ρ c main_arg8 (by decide)).trans (V1_arg8 m ρ c)

theorem W2_arg9 (c : Dev nD) : W2 m ρ c (Proc.devRef .tc main_arg9) = (m ((c : Thread nD τ).loc main_arg9)) :=
  (W2_of_ne m ρ c main_arg9 (by decide)).trans (V1_arg9 m ρ c)

theorem W2_arg10 (c : Dev nD) : W2 m ρ c (Proc.devRef .tc main_arg10) = (m ((c : Thread nD τ).loc main_arg10)) :=
  (W2_of_ne m ρ c main_arg10 (by decide)).trans (V1_arg10 m ρ c)

theorem V3_agg (c : Dev nD) : V3 m ρ c main_v25 = nbr m c (feat1 m c) := by
  show StableHlo.after hostOps1 (W2 m ρ c) (Proc.devRef .tc main_v25) = _
  dsimp only [hostOps1]
  after_results
  rw [W2_src m ρ c, W2_dst m ρ c, W2_feat1 m ρ c]
  rfl

theorem V3_feat (c : Dev nD) : V3 m ρ c main_v15 = feat1 m c := by
  show StableHlo.after hostOps1 (W2 m ρ c) (Proc.devRef .tc main_v15) = _
  dsimp only [hostOps1]
  after_results
  exact W2_feat1 m ρ c

theorem V3_arg5 (c : Dev nD) : V3 m ρ c main_arg5 = (m ((c : Thread nD τ).loc main_arg5)) := by
  show StableHlo.after hostOps1 (W2 m ρ c) (Proc.devRef .tc main_arg5) = _
  dsimp only [hostOps1]
  after_results
  exact W2_arg5 m ρ c

theorem V3_arg6 (c : Dev nD) : V3 m ρ c main_arg6 = (m ((c : Thread nD τ).loc main_arg6)) := by
  show StableHlo.after hostOps1 (W2 m ρ c) (Proc.devRef .tc main_arg6) = _
  dsimp only [hostOps1]
  after_results
  exact W2_arg6 m ρ c

theorem V3_brow (c : Dev nD) : V3 m ρ c main_v26 = shapeCast S1x64 (m ((c : Thread nD τ).loc main_arg7)) shapeCasts_S64_S1x64 := by
  show StableHlo.after hostOps1 (W2 m ρ c) (Proc.devRef .tc main_v26) = _
  dsimp only [hostOps1]
  after_results
  rw [W2_arg7 m ρ c]
  rfl

/-! ## The second region's output -/

theorem W4_feat2 (c : Dev nD) : W4 m ρ c (Proc.devRef .tc main_v27) = feat2 m c := by
  refine (W4_arr m ρ c 5).trans ?_
  rw [Region1.out_eq (V3 m ρ) c, V3_agg m ρ c, V3_feat m ρ c, V3_arg5 m ρ c, V3_arg6 m ρ c, V3_brow m ρ c]
  exact kerRelu_eq_convRelu _ _ _ _ _ _

/-! ## Before the third region -/

theorem W3_main_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results

theorem W3_main_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results

theorem W3_main_arg8 (c : Dev nD) : W3 m ρ c (Proc.devRef .tc main_arg8) = W2 m ρ c (Proc.devRef .tc main_arg8) := by
  show StableHlo.after hostOps1 (W2 m ρ c) (Proc.devRef .tc main_arg8) = _
  dsimp only [hostOps1]
  after_results

theorem W3_main_arg9 (c : Dev nD) : W3 m ρ c (Proc.devRef .tc main_arg9) = W2 m ρ c (Proc.devRef .tc main_arg9) := by
  show StableHlo.after hostOps1 (W2 m ρ c) (Proc.devRef .tc main_arg9) = _
  dsimp only [hostOps1]
  after_results

theorem W3_main_arg10 (c : Dev nD) : W3 m ρ c (Proc.devRef .tc main_arg10) = W2 m ρ c (Proc.devRef .tc main_arg10) := by
  show StableHlo.after hostOps1 (W2 m ρ c) (Proc.devRef .tc main_arg10) = _
  dsimp only [hostOps1]
  after_results

theorem W4_src (c : Dev nD) : W4 m ρ c (Proc.devRef .tc main_v1) = srcOf (m ((c : Thread nD τ).loc main_arg1)) :=
  (W4_of_ne m ρ c main_v1 (by decide)).trans ((W3_main_v1 m ρ c).trans (W2_src m ρ c))

theorem W4_dst (c : Dev nD) : W4 m ρ c (Proc.devRef .tc main_v3) = dstOf (m ((c : Thread nD τ).loc main_arg1)) :=
  (W4_of_ne m ρ c main_v3 (by decide)).trans ((W3_main_v3 m ρ c).trans (W2_dst m ρ c))

theorem W4_arg8 (c : Dev nD) : W4 m ρ c (Proc.devRef .tc main_arg8) = (m ((c : Thread nD τ).loc main_arg8)) :=
  (W4_of_ne m ρ c main_arg8 (by decide)).trans ((W3_main_arg8 m ρ c).trans (W2_arg8 m ρ c))

theorem W4_arg9 (c : Dev nD) : W4 m ρ c (Proc.devRef .tc main_arg9) = (m ((c : Thread nD τ).loc main_arg9)) :=
  (W4_of_ne m ρ c main_arg9 (by decide)).trans ((W3_main_arg9 m ρ c).trans (W2_arg9 m ρ c))

theorem W4_arg10 (c : Dev nD) : W4 m ρ c (Proc.devRef .tc main_arg10) = (m ((c : Thread nD τ).loc main_arg10)) :=
  (W4_of_ne m ρ c main_arg10 (by decide)).trans ((W3_main_arg10 m ρ c).trans (W2_arg10 m ρ c))

theorem V5_agg (c : Dev nD) : V5 m ρ c main_v37 = nbr m c (feat2 m c) := by
  show StableHlo.after hostOps2 (W4 m ρ c) (Proc.devRef .tc main_v37) = _
  dsimp only [hostOps2]
  after_results
  rw [W4_src m ρ c, W4_dst m ρ c, W4_feat2 m ρ c]
  rfl

theorem V5_feat (c : Dev nD) : V5 m ρ c main_v27 = feat2 m c := by
  show StableHlo.after hostOps2 (W4 m ρ c) (Proc.devRef .tc main_v27) = _
  dsimp only [hostOps2]
  after_results
  exact W4_feat2 m ρ c

theorem V5_arg8 (c : Dev nD) : V5 m ρ c main_arg8 = (m ((c : Thread nD τ).loc main_arg8)) := by
  show StableHlo.after hostOps2 (W4 m ρ c) (Proc.devRef .tc main_arg8) = _
  dsimp only [hostOps2]
  after_results
  exact W4_arg8 m ρ c

theorem V5_arg9 (c : Dev nD) : V5 m ρ c main_arg9 = (m ((c : Thread nD τ).loc main_arg9)) := by
  show StableHlo.after hostOps2 (W4 m ρ c) (Proc.devRef .tc main_arg9) = _
  dsimp only [hostOps2]
  after_results
  exact W4_arg9 m ρ c

theorem V5_brow (c : Dev nD) : V5 m ρ c main_v38 = shapeCast S1x64 (m ((c : Thread nD τ).loc main_arg10)) shapeCasts_S64_S1x64 := by
  show StableHlo.after hostOps2 (W4 m ρ c) (Proc.devRef .tc main_v38) = _
  dsimp only [hostOps2]
  after_results
  rw [W4_arg10 m ρ c]
  rfl

/-! ## The third region's output: the result -/

theorem W6_feat3 (c : Dev nD) : W6 m ρ c (Proc.devRef .tc main_v39) = feat3 m c := by
  refine (W6_arr m ρ c 5).trans ?_
  rw [Region2.out_eq (V5 m ρ) c, V5_agg m ρ c, V5_feat m ρ c, V5_arg8 m ρ c, V5_arg9 m ρ c, V5_brow m ρ c]
  exact kerSum_eq_conv _ _ _ _ _ _

/-- THE RESULT BUFFER at the last boundary is the three layers over the kernel's own neighbour sum. -/
theorem result_eq (c : Dev nD) : W6 m ρ c (Proc.devRef .tc main_v39)
    = net (nbr m c) (m ((c : Thread nD τ).loc main_arg0))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) :=
  (W6_feat3 m ρ c).trans rfl

end Cert.KernelIdeal.HostValue

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.RefValue.lean ====
/-
  The reference's result is the three layers of the specification.

  The reference's @main, read back as one term of its arguments, is three times the same pattern: the neighbour sum
  of the current features (gather the rows at the edges' sources, scatter-add them at the edges' targets), two
  `dot_general`s against the layer's weights, the bias broadcast as a row between them, and a maximum with zero
  after the first two.  A `dot_general` with plain dimension numbers is, at `(p, q)`, the sum over `k` of
  `lhs (p, k) * rhs (k, q)`; the bias broadcast twice reads `b q`.  So each pattern is `conv` (or `convRelu`) of the
  specification, and the whole term is `net` over the reference's own neighbour sum.
-/
import proofs.«141941_j75411035783819_1_alg».proof.Proof.Gen.ReferenceIdeal.Run
import proofs.«141941_j75411035783819_1_alg».proof.Proof.Spec
import proofs.«141941_j75411035783819_1_alg».proof.Proof.LibPlainDot
import proofs.«141941_j75411035783819_1_alg».proof.Proof.LibDense

set_option maxRecDepth 16384

noncomputable section

namespace Cert.ReferenceIdeal.RefValue

open Cert.ReferenceIdeal Cert.ReferenceIdeal.Facts₀ Cert.GraphConv
open Idealize.ShloMosaic Idealize.ShloMosaic.TcCoe Idealize.ShloMosaic.ValueIdx Idealize.SL.Sem

/-- The edges' source rows: row 0 of the edge array. -/
def srcOf (e : IVec S2x1600000 32) : IVec S1600000 32 :=
  shapeCast _ (extractStridedSlice S1x1600000 ![0, 0] e slices_S2x1600000_S1x1600000_0_0) shapeCasts_S1x1600000_S1600000

/-- The edges' target rows: row 1 of the edge array. -/
def dstOf (e : IVec S2x1600000 32) : IVec S1600000 32 :=
  shapeCast _ (extractStridedSlice S1x1600000 ![1, 0] e slices_S2x1600000_S1x1600000_1_0) shapeCasts_S1x1600000_S1600000

/-- The neighbour sum: the rows of `x` at the sources (a negative row number wrapped once), scatter-added into zeros
    at the targets. -/
def aggrFrom (src dst : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One layer as the reference spells it: `(agg · wl + b) + h · wr` in host operations. -/
def layer (a h : FVec Ideal S100000x64 .f32) (wl : FVec Ideal S64x64 .f32) (b : FVec Ideal S64 .f32)
    (wr : FVec Ideal S64x64 .f32) : FVec Ideal S100000x64 .f32 :=
  addf (addf (Host.dotGeneral dot_S100000x64_S64x64_S100000x64_1_0_0_1_n_n none a wl)
      (broadcastInDim S100000x64 ![0, 1] bcast_S1x64_S100000x64_0_1 (broadcastInDim S1x64 ![1] bcast_S64_S1x64_1 b)))
    (Host.dotGeneral dot_S100000x64_S64x64_S100000x64_1_0_0_1_n_n none h wr)

/-- The reference's activation: the maximum with the zero word spread over the array. -/
def relu (y : FVec Ideal S100000x64 .f32) : FVec Ideal S100000x64 .f32 :=
  maximumf y (broadcastInDim S100000x64 ![] bcast_S_S100000x64 (constant (F := Ideal) S_ .f32 0x00000000#32))

/-- The reference's products are plain 100000×64 by 64×64 ones. -/
theorem dims_plain : dot_S100000x64_S64x64_S100000x64_1_0_0_1_n_n = DotDims.plain 100000 64 64 := rfl

theorem layer_eq (a h : FVec Ideal S100000x64 .f32) (wl : FVec Ideal S64x64 .f32) (b : FVec Ideal S64 .f32)
    (wr : FVec Ideal S64x64 .f32) : layer a h wl b wr = conv a h wl b wr := by
  funext i
  obtain ⟨p, q, rfl⟩ : ∃ (p : Fin 100000) (q : Fin 64), i = ix2 p q := ⟨i 0, i 1, eq_ix2 i⟩
  rw [conv_apply]
  show (FloatOps.dotGeneral dot_S100000x64_S64x64_S100000x64_1_0_0_1_n_n none .single a wl (ix2 p q)
      + broadcastInDim S100000x64 ![0, 1] bcast_S1x64_S100000x64_0_1 (broadcastInDim S1x64 ![1] bcast_S64_S1x64_1 b) (ix2 p q))
    + FloatOps.dotGeneral dot_S100000x64_S64x64_S100000x64_1_0_0_1_n_n none .single h wr (ix2 p q) = _
  rw [PlainDot.dotGeneral_apply _ dims_plain none .single a wl p q, PlainDot.dotGeneral_apply _ dims_plain none .single h wr p q,
    DenseLayer.inDimRow_apply b bcast_S64_S1x64_1 bcast_S1x64_S100000x64_0_1 p q]

theorem relu_layer_eq (a h : FVec Ideal S100000x64 .f32) (wl : FVec Ideal S64x64 .f32) (b : FVec Ideal S64 .f32)
    (wr : FVec Ideal S64x64 .f32) : relu (layer a h wl b wr) = convRelu a h wl b wr := by
  funext i
  show max (layer a h wl b wr i) zeroWord = max (conv a h wl b wr i) zeroWord
  rw [layer_eq]

/-- THE REFERENCE'S RESULT is the three layers over its own neighbour sum. -/
theorem res_eq (m : (ℓ : Loc nD τ sig) → Buf (Elt Ideal) ℓ) (c : Dev nD) :
    Cert.ReferenceIdeal.Value.res_main_v53 (F := Ideal) m c
      = net (aggrFrom (srcOf (m ((c : Thread nD τ).loc main_arg1))) (dstOf (m ((c : Thread nD τ).loc main_arg1))))
          (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  have hterm : Cert.ReferenceIdeal.Value.res_main_v53 (F := Ideal) m c
      = layer
          (aggrFrom (srcOf (m ((c : Thread nD τ).loc main_arg1))) (dstOf (m ((c : Thread nD τ).loc main_arg1)))
            (relu (layer
              (aggrFrom (srcOf (m ((c : Thread nD τ).loc main_arg1))) (dstOf (m ((c : Thread nD τ).loc main_arg1)))
                (relu (layer
                  (aggrFrom (srcOf (m ((c : Thread nD τ).loc main_arg1))) (dstOf (m ((c : Thread nD τ).loc main_arg1)))
                    (m ((c : Thread nD τ).loc main_arg0)))
                  (m ((c : Thread nD τ).loc main_arg0)) (m ((c : Thread nD τ).loc main_arg2))
                  (m ((c : Thread nD τ).loc main_arg4)) (m ((c : Thread nD τ).loc main_arg3)))))
              (relu (layer
                (aggrFrom (srcOf (m ((c : Thread nD τ).loc main_arg1))) (dstOf (m ((c : Thread nD τ).loc main_arg1)))
                  (m ((c : Thread nD τ).loc main_arg0)))
                (m ((c : Thread nD τ).loc main_arg0)) (m ((c : Thread nD τ).loc main_arg2))
                (m ((c : Thread nD τ).loc main_arg4)) (m ((c : Thread nD τ).loc main_arg3))))
              (m ((c : Thread nD τ).loc main_arg5)) (m ((c : Thread nD τ).loc main_arg7)) (m ((c : Thread nD τ).loc main_arg6)))))
          (relu (layer
            (aggrFrom (srcOf (m ((c : Thread nD τ).loc main_arg1))) (dstOf (m ((c : Thread nD τ).loc main_arg1)))
              (relu (layer
                (aggrFrom (srcOf (m ((c : Thread nD τ).loc main_arg1))) (dstOf (m ((c : Thread nD τ).loc main_arg1)))
                  (m ((c : Thread nD τ).loc main_arg0)))
                (m ((c : Thread nD τ).loc main_arg0)) (m ((c : Thread nD τ).loc main_arg2))
                (m ((c : Thread nD τ).loc main_arg4)) (m ((c : Thread nD τ).loc main_arg3)))))
            (relu (layer
              (aggrFrom (srcOf (m ((c : Thread nD τ).loc main_arg1))) (dstOf (m ((c : Thread nD τ).loc main_arg1)))
                (m ((c : Thread nD τ).loc main_arg0)))
              (m ((c : Thread nD τ).loc main_arg0)) (m ((c : Thread nD τ).loc main_arg2))
              (m ((c : Thread nD τ).loc main_arg4)) (m ((c : Thread nD τ).loc main_arg3))))
            (m ((c : Thread nD τ).loc main_arg5)) (m ((c : Thread nD τ).loc main_arg7)) (m ((c : Thread nD τ).loc main_arg6))))
          (m ((c : Thread nD τ).loc main_arg8)) (m ((c : Thread nD τ).loc main_arg10)) (m ((c : Thread nD τ).loc main_arg9)) := by
    unfold Cert.ReferenceIdeal.Value.res_main_v53
    rfl
  rw [hterm]
  simp only [relu_layer_eq, layer_eq]
  rfl

end Cert.ReferenceIdeal.RefValue

end
-- ==== Proof.lean ====
/-
  Three graph-convolution layers computed by three pipelined kernels against the plain reference, over the extended
  reals.

  Each layer is `(agg · wl + b) + h · wr`, where `agg` is the neighbour sum of the features `h` along the edges, under
  a maximum with zero on the first two layers.  Both programs compute the neighbour sum with the same host operations
  (gather at the edges' sources, scatter-add at their targets).  The reference multiplies whole arrays with
  `dot_general` and adds the bias between the two products; the kernel multiplies blocks of 5000 rows on the matrix
  unit after narrowing the operands' float format, and adds the bias row last.  At the ideal instance narrowing is the
  identity, both products are the plain sum over the contracted coordinate, the 20 row blocks tile the array, and
  `(a + c) + b = (a + b) + c` holds for all extended reals; so both results are the same function `net` of arguments
  that agree.  The precondition is never used: no law here needs finiteness.

  The three frames are the generated ones (the reference's is its run with the result dropped), and the idealization
  rewrote no operation, so there is nothing to preserve.
-/
import proofs.«141941_j75411035783819_1_alg».proof.Defs
import proofs.«141941_j75411035783819_1_alg».proof.Proof.Gen.Kernel
import proofs.«141941_j75411035783819_1_alg».proof.Proof.Gen.Kernel.Frame
import proofs.«141941_j75411035783819_1_alg».proof.Proof.Gen.KernelIdeal
import proofs.«141941_j75411035783819_1_alg».proof.Proof.Gen.KernelIdeal.Frame
import proofs.«141941_j75411035783819_1_alg».proof.Proof.Gen.ReferenceIdeal
import proofs.«141941_j75411035783819_1_alg».proof.Proof.Gen.ReferenceIdeal.Run
import proofs.«141941_j75411035783819_1_alg».proof.Proof.Gen.Pre_finite_inputs
import proofs.«141941_j75411035783819_1_alg».proof.Proof.KernelRun
import proofs.«141941_j75411035783819_1_alg».proof.Proof.KernelValue
import proofs.«141941_j75411035783819_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.GraphConv

/-- Equal neighbour sums and equal arguments give equal networks. -/
theorem net_congr {A A' : (Nodes.Idx → EReal) → Nodes.Idx → EReal} {x x' : Nodes.Idx → EReal}
    {wl1 wl1' wr1 wr1' wl2 wl2' wr2 wr2' wl3 wl3' wr3 wr3' : Weights.Idx → EReal} {b1 b1' b2 b2' b3 b3' : Bias.Idx → EReal}
    (hA : A = A') (hx : x = x') (h1l : wl1 = wl1') (h1r : wr1 = wr1') (h1b : b1 = b1')
    (h2l : wl2 = wl2') (h2r : wr2 = wr2') (h2b : b2 = b2') (h3l : wl3 = wl3') (h3r : wr3 = wr3') (h3b : b3 = b3') :
    net A x wl1 wr1 b1 wl2 wr2 b2 wl3 wr3 b3 = net A' x' wl1' wr1' b1' wl2' wr2' b2' wl3' wr3' b3' := by
  subst hA hx h1l h1r h1b h2l h2r h2b h3l h3r h3b
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the three layers of arguments that agree: the kernel's result buffer holds what
    the third region leaves, the reference's its composed term, and both are `net` over one neighbour sum. -/
theorem algebraic : Cert.algebraic_KernelIdeal_ReferenceIdeal := by
  intro m ρ m' ρ' _ hagree
  refine ⟨fun c => Cert.KernelIdeal.Gen.W6 m ρ c (Proc.devRef .tc Cert.KernelIdeal.main_v39), ?_, ?_⟩
  · refine (θ_run Cert.KernelIdeal.defs _ _).mono (fun r h c => ?_) (Cert.KernelIdeal.RunValue.run_at m ρ)
    exact ⟨h c Cert.KernelIdeal.main_v39 (by decide),
      (h c Cert.KernelIdeal.main_arg0 (by decide)).trans (Cert.KernelIdeal.Gen.W6_main_arg0 m ρ c),
      (h c Cert.KernelIdeal.main_arg1 (by decide)).trans (Cert.KernelIdeal.Gen.W6_main_arg1 m ρ c),
      (h c Cert.KernelIdeal.main_arg2 (by decide)).trans (Cert.KernelIdeal.Gen.W6_main_arg2 m ρ c),
      (h c Cert.KernelIdeal.main_arg3 (by decide)).trans (Cert.KernelIdeal.Gen.W6_main_arg3 m ρ c),
      (h c Cert.KernelIdeal.main_arg4 (by decide)).trans (Cert.KernelIdeal.Gen.W6_main_arg4 m ρ c),
      (h c Cert.KernelIdeal.main_arg5 (by decide)).trans (Cert.KernelIdeal.Gen.W6_main_arg5 m ρ c),
      (h c Cert.KernelIdeal.main_arg6 (by decide)).trans (Cert.KernelIdeal.Gen.W6_main_arg6 m ρ c),
      (h c Cert.KernelIdeal.main_arg7 (by decide)).trans (Cert.KernelIdeal.Gen.W6_main_arg7 m ρ c),
      (h c Cert.KernelIdeal.main_arg8 (by decide)).trans (Cert.KernelIdeal.Gen.W6_main_arg8 m ρ c),
      (h c Cert.KernelIdeal.main_arg9 (by decide)).trans (Cert.KernelIdeal.Gen.W6_main_arg9 m ρ c),
      (h c Cert.KernelIdeal.main_arg10 (by decide)).trans (Cert.KernelIdeal.Gen.W6_main_arg10 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    refine ((Cert.ReferenceIdeal.RefValue.res_eq m' c).trans ?_).trans (Cert.KernelIdeal.HostValue.result_eq m ρ c).symm
    refine net_congr ?_ e0 e2 e3 e4 e5 e6 e7 e8 e9 e10
    rw [e1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
